-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel

variable [Facts]

def fn {F : FTy → Type} [FloatOps F] (main_arg0 : FVec F S32x512x512 .f32) (main_arg1 : FVec F S32x512x512 .f32) (main_arg2 : IVec S32x512x512 1) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S32x512x512 .f32 := Host.absf main_arg1
  let main_cst_0 : FVec F S_ .f32 := constant S_ .f32 0x7F800000#32
  let main_v5 : FVec F S32x512x512 .f32 := broadcastInDim S32x512x512 ![] bcast_S_S32x512x512 main_cst_0
  let main_v6 : IVec S32x512x512 1 := cmpf .olt main_v4 main_v5
  let main_c_1 : IVec S_ 1 := constantI S_ 1 1#1
  let main_v7 : IVec S_ 1 := (fun x v => Host.reduce IntOp.andi x v reducesTo_S32x512x512_S_d0_1_2 h_S_) main_v6 main_c_1
  let main_v8 : IVec S_ 1 := andi main_v3 main_v7
  main_v8
-- ==== Kernel.lean ====
abbrev S32x512x512 : Shape := ⟨3, ![32, 512, 512]⟩
abbrev S2x512x512 : Shape := ⟨3, ![2, 512, 512]⟩
abbrev S2x512 : Shape := ⟨2, ![2, 512]⟩
abbrev S2x512x1 : Shape := ⟨3, ![2, 512, 1]⟩
abbrev S2x1 : Shape := ⟨2, ![2, 1]⟩
abbrev S2x1x1 : Shape := ⟨3, ![2, 1, 1]⟩

abbrev nBuf : Space → Nat
  | .hbm => 5
  | .vmem => 8
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S32x512x512, .i1⟩
  | .hbm, ⟨3, _⟩ => ⟨S32x512x512, .i32⟩
  | .hbm, ⟨4, _⟩ => ⟨S32x512x512, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S2x512x512, .i32⟩
  | .local _ .vmem, ⟨5, _⟩ => ⟨S2x512x512, .i32⟩
  | .local _ .vmem, ⟨6, _⟩ => ⟨S2x512x512, .f32⟩
  | .local _ .vmem, ⟨7, _⟩ => ⟨S2x512x512, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  natLt_1_32 : 1 < 32
  inb_S2x512x512_S2x512x512_0_0_0 : ∀ a, (![0, 0, 0] : Fin 3 → Nat) a + S2x512x512.size a ≤ S2x512x512.size a
  h_S2x512x512 : 0 < S2x512x512.numel
  reduces_S2x512x512_S2x512 : S2x512x512.Reduces [2] S2x512
  shapeCasts_S2x512_S2x512x1 : S2x512.ShapeCasts S2x512x1
  reduces_S2x512x1_S2x1 : S2x512x1.Reduces [1] S2x1
  shapeCasts_S2x1_S2x1x1 : S2x1.ShapeCasts S2x1x1
  broadcasts_S2x1x1_S2x512x512 : S2x1x1.Broadcasts S2x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S32x512x512.size a
  hwx0_0 : ∀ i : grid0.Coords, EltTy.bits .f32 = 32 ∨ (Rect.block (s := S32x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S32x512x512.size a
  hwx0_1 : ∀ i : grid0.Coords, EltTy.bits .f32 = 32 ∨ (Rect.block (s := S32x512x512) S2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x512.size a ≤ S32x512x512.size a
  hwx0_2 : ∀ i : grid0.Coords, EltTy.bits .i32 = 32 ∨ (Rect.block (s := S32x512x512) S2x512x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x512.size a ≤ S32x512x512.size a
  hwx0_3 : ∀ i : grid0.Coords, EltTy.bits .f32 = 32 ∨ (Rect.block (s := S32x512x512) S2x512x512.size (cc0_transform_3 i) (hinb0_3 i)).WholeWords (EltTy.packing .f32)

variable [Facts₀]

abbrev win0_0 : Pipeline.Window sig grid0 :=
  Pipeline.Window.ofSpec (Memref.whole main_arg0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x512 : Shape := ⟨3, ![32, 512, 512]⟩
abbrev S_ : Shape := ⟨0, ![]⟩
abbrev S32 : Shape := ⟨1, ![32]⟩
abbrev S32x1x1 : Shape := ⟨3, ![32, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S32x512x512, .i1⟩
  | .hbm, ⟨3, _⟩ => ⟨S32x512x512, .f32⟩
  | .hbm, ⟨4, _⟩ => ⟨S_, .f32⟩
  | .hbm, ⟨5, _⟩ => ⟨S32, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S32x512x512, .f32⟩
  | .hbm, ⟨11, _⟩ => ⟨S_, .f32⟩
  | .hbm, ⟨12, _⟩ => ⟨S32, .f32⟩
  | .hbm, ⟨13, _⟩ => ⟨S32x1x1, .f32⟩
  | .hbm, ⟨14, _⟩ => ⟨S32x1x1, .f32⟩
  | .hbm, ⟨15, _⟩ => ⟨S32x512x512, .f32⟩
  | .hbm, ⟨16, _⟩ => ⟨S32x512x512, .f32⟩
  | .hbm, ⟨17, _⟩ => ⟨S32x512x512, .f32⟩
  | .hbm, ⟨18, _⟩ => ⟨S32x512x512, .f32⟩
  | .hbm, ⟨19, _⟩ => ⟨S_, .f32⟩
  | .hbm, ⟨20, _⟩ => ⟨S32, .f32⟩
  | .hbm, ⟨21, _⟩ => ⟨S32x1x1, .f32⟩
  | .hbm, ⟨22, _⟩ => ⟨S32x1x1, .f32⟩
  | .hbm, ⟨23, _⟩ => ⟨S_, .f32⟩
  | .hbm, ⟨24, _⟩ => ⟨S32x1x1, .f32⟩
  | .hbm, ⟨25, _⟩ => ⟨S32x1x1, .f32⟩
  | .hbm, ⟨26, _⟩ => ⟨S32x512x512, .f32⟩
  | .hbm, ⟨27, _⟩ => ⟨S32x512x512, .f32⟩
  | .hbm, ⟨28, _⟩ => ⟨S32x512x512, .f32⟩
  | .hbm, ⟨29, _⟩ => ⟨S_, .f32⟩
  | .hbm, ⟨30, _⟩ => ⟨S32, .f32⟩
  | .hbm, ⟨31, _⟩ => ⟨S32x1x1, .f32⟩
  | .hbm, ⟨32, _⟩ => ⟨S32x1x1, .f32⟩
  | .hbm, ⟨33, _⟩ => ⟨S32x512x512, .f32⟩
  | .hbm, ⟨34, _⟩ => ⟨S32x512x512, .f32⟩
  | .hbm, ⟨35, _⟩ => ⟨S32x512x512, .f32⟩
  | .hbm, ⟨36, _⟩ => ⟨S32x512x512, .f32⟩
  | .hbm, ⟨37, _⟩ => ⟨S_, .f32⟩
  | .hbm, ⟨38, _⟩ => ⟨S32, .f32⟩
  | .hbm, ⟨39, _⟩ => ⟨S32x1x1, .f32⟩
  | .hbm, ⟨40, _⟩ => ⟨S32x1x1, .f32⟩
  | .hbm, ⟨41, _⟩ => ⟨S_, .f32⟩
  | .hbm, ⟨42, _⟩ => ⟨S32x1x1, .f32⟩
  | .hbm, ⟨43, _⟩ => ⟨S32x1x1, .f32⟩
  | .hbm, ⟨44, _⟩ => ⟨S32x512x512, .f32⟩
  | .hbm, ⟨45, _⟩ => ⟨S32x512x512, .f32⟩
  | .hbm, ⟨46, _⟩ => ⟨S32x512x512, .f32⟩
  | .hbm, ⟨47, _⟩ => ⟨S32x512x512, .f32⟩
  | .hbm, ⟨48, _⟩ => ⟨S32x512x512, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  reducesTo_S32x512x512_S32_d1_2 : S32x512x512.ReducesTo [1, 2] S32
  h_S_ : 0 < S_.numel
  bcast_S32_S32x1x1_0 : S32.BroadcastsInDim S32x1x1 (![0] : Fin 1 → Fin S32x1x1.rank)
  bcast_S_S32x1x1 : S_.BroadcastsInDim S32x1x1 (![] : Fin 0 → Fin S32x1x1.rank)
  bcast_S32x1x1_S32x512x512_0_1_2 : S32x1x1.BroadcastsInDim S32x512x512 (![0, 1, 2] : Fin 3 → Fin S32x512x512.rank)

variable [Facts₀]

class Facts : Prop extends Facts₀ where

variable [Facts]
-- ==== Proof.PlaneLaw.lean ====
/-
  The mathematics of one sample's plane, free of any program.

  For one sample, write `x`, `y` for the two value planes and `m` for the mask plane (every entry `0` or `1`), all
  indexed by a row `h` and a column `w`. With `tot f = ∑ h, ∑ w, f h w`, `mag a = max a (-a)` (the absolute value on the
  extended reals) and the two constants `one`, `eps`:

    cnt      = max (tot m) one
    shift x  = tot (x · m) / cnt

  The reference arrangement masks AFTER the absolute value, and once more at the very end:

    scaleR x = max (tot (mag (x - shift x) · m) / cnt) eps
    outR h w = mag ((x h w - shift x) / scaleR x - (y h w - shift y) / scaleR y) · m h w

  The kernel arrangement masks the centred value once and never again:

    scaleK x = max (tot (mag ((x - shift x) · m)) / cnt) eps
    outK h w = mag ((x h w - shift x) · m h w / scaleK x - (y h w - shift y) · m h w / scaleK y)

  They agree because a mask entry is `0` or `1`: `mag (a · 0) = 0 = mag a · 0` and `mag (a · 1) = mag a · 1`, so the two
  scales are the same number; where `m h w = 1` both outputs are the same expression, and where `m h w = 0` the kernel's is
  `mag (0 / s - 0 / s') = 0` (the scales are at least `eps > 0`, hence not zero, and `0 / s = 0 · s⁻¹ = 0`) while the
  reference's is `_ · 0 = 0`. Only the monoid-with-zero laws of the extended reals are used (`a · 0 = 0`, `a · 1 = a`,
  `0 - 0 = 0`), so no finiteness of `x`, `y` is needed.
-/
import Idealize.ShloMosaic.PureOps.Ideal

noncomputable section

open scoped BigOperators

namespace Cert.MaskedNorm

open Idealize.ShloMosaic

variable {ι κ : Type} [Fintype ι] [Fintype κ]

/-- The sum of a plane, rows outside, columns inside. -/
def tot (f : ι → κ → EReal) : EReal := ∑ h, ∑ w, f h w

/-- The absolute value on the extended reals. -/
def mag (a : EReal) : EReal := max a (-a)

variable (one eps : EReal)

/-- The number of masked-in entries, at least `one`. -/
def cnt (m : ι → κ → EReal) : EReal := max (tot m) one

/-- The masked mean of a plane. -/
def shift (x m : ι → κ → EReal) : EReal := Ideal.div (tot fun h w => x h w * m h w) (cnt one m)

/-- The masked mean absolute deviation, at least `eps`: the absolute value first, the mask after. -/
def scaleR (x m : ι → κ → EReal) : EReal :=
  max (Ideal.div (tot fun h w => mag (x h w - shift one x m) * m h w) (cnt one m)) eps

/-- The normalised difference, masked at the end. -/
def outR (x y m : ι → κ → EReal) : ι → κ → EReal := fun h w =>
  mag (Ideal.div (x h w - shift one x m) (scaleR one eps x m) - Ideal.div (y h w - shift one y m) (scaleR one eps y m)) * m h w

/-- The same deviation with the mask applied to the centred value, before the absolute value. -/
def scaleK (x m : ι → κ → EReal) : EReal :=
  max (Ideal.div (tot fun h w => mag ((x h w - shift one x m) * m h w)) (cnt one m)) eps

/-- The normalised difference of the masked centred values, with no mask at the end. -/
def outK (x y m : ι → κ → EReal) : ι → κ → EReal := fun h w =>
  mag (Ideal.div ((x h w - shift one x m) * m h w) (scaleK one eps x m)
    - Ideal.div ((y h w - shift one y m) * m h w) (scaleK one eps y m))

/-- A factor `0` or `1` passes through the absolute value. -/
theorem mag_mul_bit (a b : EReal) (hb : b = 0 ∨ b = 1) : mag (a * b) = mag a * b := by
  rcases hb with rfl | rfl
  · simp [mag]
  · simp [mag]

/-- So the two deviations are one number. -/
theorem scaleK_eq_scaleR (x m : ι → κ → EReal) (hm : ∀ h w, m h w = 0 ∨ m h w = 1) :
    scaleK one eps x m = scaleR one eps x m := by
  unfold scaleK scaleR
  have e : (fun h w => mag ((x h w - shift one x m) * m h w)) = fun h w => mag (x h w - shift one x m) * m h w :=
    funext fun h => funext fun w => mag_mul_bit _ _ (hm h w)
  rw [e]

/-- Zero divided by a nonzero extended real is zero. -/
theorem div_zero_left {s : EReal} (hs : s ≠ 0) : Ideal.div 0 s = 0 := by
  unfold Ideal.div
  rw [if_neg hs, zero_mul]

/-- The deviation is not zero: it is at least `eps`, which is positive. -/
theorem scaleR_ne_zero (heps : 0 < eps) (x m : ι → κ → EReal) : scaleR one eps x m ≠ 0 :=
  (lt_of_lt_of_le heps (le_max_right _ _)).ne'

/-- THE LAW: for a mask of zeros and ones and a positive `eps`, the kernel arrangement is the reference arrangement. -/
theorem outK_eq_outR (heps : 0 < eps) (x y m : ι → κ → EReal) (hm : ∀ h w, m h w = 0 ∨ m h w = 1) :
    outK one eps x y m = outR one eps x y m := by
  funext h w
  unfold outK outR
  rw [scaleK_eq_scaleR one eps x m hm, scaleK_eq_scaleR one eps y m hm]
  rcases hm h w with h0 | h1
  · rw [h0]
    simp only [mul_zero]
    rw [div_zero_left (scaleR_ne_zero one eps heps x m), div_zero_left (scaleR_ne_zero one eps heps y m)]
    simp [mag]
  · rw [h1]
    simp only [mul_one]

end Cert.MaskedNorm

end
-- ==== Proof.Spec.lean ====
/-
  The specification of both programs as ONE function of the three argument arrays.

  The arrays are [n, 512, 512]: `n` samples, each a 512 × 512 plane. Sample `b`'s plane of an array `x` is
  `plane x b = fun h w => x (b, h, w)`. Each output entry depends on its own sample's three planes only:

    specR x y mk (b, h, w) = outR one eps (plane x b) (plane y b) (plane mk b) h w     (the reference arrangement)
    specK x y mk (b, h, w) = outK one eps (plane x b) (plane y b) (plane mk b) h w     (the kernel arrangement)

  with `one` the float pattern of 1.0 and `eps` the pattern 0x358637BD (about 1e-6, a positive number: the only fact about
  it that is used). For a mask array of zeros and ones the two are equal (`outK_eq_outR`, plane by plane).
  The mask reaches the arithmetic as an extended real: `maskVal` reads a bit as the number 0 or 1.
-/
import Idealize.ShloMosaic.Lib.ValueIdx
import proofs.«108099_j17660905521836_2_alg».proof.Proof.PlaneLaw

noncomputable section

open scoped BigOperators

namespace Cert.MaskedNorm

open Idealize.ShloMosaic Idealize.ShloMosaic.ValueIdx

/-- `n` planes of 512 × 512. -/
abbrev Planes (n : Nat) : Shape := ⟨3, ![n, 512, 512]⟩

/-- The pattern of 1.0 as an extended real (never evaluated: it is the same word on both sides). -/
def oneC : EReal := Ideal.ofBits .f32 0x3F800000#32

/-- The pattern 0x358637BD as an extended real. -/
def epsC : EReal := Ideal.ofBits .f32 0x358637BD#32

/-- It denotes a positive number. -/
theorem epsC_pos : 0 < epsC := by
  unfold epsC
  simp [Ideal.ofBits, Ideal.ieee, -EReal.coe_mul]

/-- Sample `b`'s plane of an array. -/
def plane {n : Nat} (x : (Planes n).Idx → EReal) (b : Fin n) : Fin 512 → Fin 512 → EReal := fun h w => x (ix3 b h w)

/-- The reference arrangement, entry by entry. -/
def specR {n : Nat} (x y mk : (Planes n).Idx → EReal) : (Planes n).Idx → EReal := fun i =>
  outR oneC epsC (plane x (i 0)) (plane y (i 0)) (plane mk (i 0)) (i 1) (i 2)

/-- The kernel arrangement, entry by entry. -/
def specK {n : Nat} (x y mk : (Planes n).Idx → EReal) : (Planes n).Idx → EReal := fun i =>
  outK oneC epsC (plane x (i 0)) (plane y (i 0)) (plane mk (i 0)) (i 1) (i 2)

/-- For a mask array of zeros and ones the two arrangements are one function. -/
theorem specK_eq_specR {n : Nat} (x y mk : (Planes n).Idx → EReal) (hmk : ∀ i, mk i = 0 ∨ mk i = 1) :
    specK x y mk = specR x y mk := by
  funext i
  unfold specK specR
  exact congrFun (congrFun (outK_eq_outR oneC epsC epsC_pos (plane x (i 0)) (plane y (i 0)) (plane mk (i 0)) (fun h w => hmk _)) (i 1)) (i 2)

/-- An entry of the kernel arrangement depends on its own sample's three planes only: two families of arrays that have
    the same three planes at samples `b` and `b'` have the same entries there. -/
theorem specK_congr {n n' : Nat} (x y mk : (Planes n).Idx → EReal) (x' y' mk' : (Planes n').Idx → EReal) (b : Fin n) (b' : Fin n')
    (hx : plane x b = plane x' b') (hy : plane y b = plane y' b') (hm : plane mk b = plane mk' b') (h w : Fin 512) :
    specK x y mk (ix3 b h w) = specK x' y' mk' (ix3 b' h w) := by
  show outK oneC epsC (plane x b) (plane y b) (plane mk b) h w = outK oneC epsC (plane x' b') (plane y' b') (plane mk' b') h w
  rw [hx, hy, hm]

/-- A mask bit as the number 0 or 1. -/
def maskVal {n : Nat} (b : (Planes n).Idx → BitVec 1) : (Planes n).Idx → EReal := fun i => (((b i).toNat : ℝ) : EReal)

/-- It is 0 or 1. -/
theorem maskVal_bit {n : Nat} (b : (Planes n).Idx → BitVec 1) (i : (Planes n).Idx) : maskVal b i = 0 ∨ maskVal b i = 1 := by
  unfold maskVal
  rcases (by decide : ∀ v : BitVec 1, v.toNat = 0 ∨ v.toNat = 1) (b i) with h | h
  · left; rw [h]; simp
  · right; rw [h]; simp

/-- The kernel's way to the same number: the bit widened to a word, compared with zero, widened again, read signed. -/
theorem word_bit (v : BitVec 1) :
    ((((IntOp.cmpi .ne (v.setWidth 32) 0#32).setWidth 32).toInt : ℝ) : EReal) = ((v.toNat : ℝ) : EReal) := by
  rw [(by decide : ∀ v : BitVec 1, ((IntOp.cmpi .ne (v.setWidth 32) 0#32).setWidth 32).toInt = (v.toNat : Int)) v]
  simp

end Cert.MaskedNorm

end
-- ==== Proof.RefValue.lean ====
/-
  The reference program's result, read entry by entry: it is the reference arrangement `specR` of the three arguments.

  The reference sums a whole [32, 512, 512] array over its two plane axes at once; at sample `b` that sum is the sum of
  the sample's plane (`planeSum_apply`: the entries that reduce to `b` are exactly those with leading coordinate `b`,
  and a sum over an index set that is a product of three ranges is the triple sum). Every other operation is
  entrywise or a broadcast of a per-sample value, so the count, the masked mean, the deviation and the final value
  are those of `PlaneLaw` on the sample's planes.
-/
import proofs.«108099_j17660905521836_2_alg».proof.Proof.Gen.ReferenceIdeal.Read
import proofs.«108099_j17660905521836_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.MaskedNorm

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An entry reduces to sample `b` exactly when its leading coordinate is `b`. -/
theorem drop_eq_iff (a b : Fin 32) (h w : Fin 512) :
    reducesTo_S32x512x512_S32_d1_2.drop (ix3 a h w) = ix1 b ↔ a = b := by
  have h0 : ((reducesTo_S32x512x512_S32_d1_2.drop (ix3 a h w) 0 : Fin 32) : Nat) = a.val :=
    Shape.ReducesTo.drop_apply_val_of_eq reducesTo_S32x512x512_S32_d1_2 (ix3 a h w) 0 0
  constructor
  · intro e
    have e0 : (reducesTo_S32x512x512_S32_d1_2.drop (ix3 a h w) 0 : Fin 32) = b := congrFun e 0
    exact Fin.ext (h0.symm.trans (congrArg Fin.val e0))
  · rintro rfl
    funext d
    match d with
    | ⟨0, _⟩ => exact Fin.ext h0

/-- The host's sum over both plane axes, from a zero start, at sample `b`: the sum of the sample's plane. -/
theorem planeSum_apply (x : FVec Ideal S32x512x512 .f32) (b : Fin 32) :
    Host.reduceAdd x (constant (F := Ideal) S_ .f32 0x00000000#32) reducesTo_S32x512x512_S32_d1_2 h_S_ (ix1 b)
      = tot (plane x b) := by
  show Ideal.hostReduceAdd reducesTo_S32x512x512_S32_d1_2 x (Ideal.ofBits .f32 0x00000000#32) (ix1 b) = _
  unfold Ideal.hostReduceAdd
  rw [Ideal.ofBits_zero_f32, zero_add, Finset.sum_filter, sum_idx3]
  unfold tot plane
  rw [Finset.sum_eq_single b]
  · refine Finset.sum_congr rfl fun h _ => Finset.sum_congr rfl fun w _ => ?_
    rw [if_pos ((drop_eq_iff b b h w).mpr rfl)]
  · intro a _ hne
    refine Finset.sum_eq_zero fun h _ => Finset.sum_eq_zero fun w _ => ?_
    rw [if_neg (fun e => hne ((drop_eq_iff a b h w).mp e))]
  · intro hb
    exact absurd (Finset.mem_univ b) hb

/-! ## The stages of the reference, at sample `b` -/

section Stages

variable (x : (⟨S32x512x512, .f32⟩ : BufTy).Contents (Elt Ideal)) (x2 : (⟨S32x512x512, .i1⟩ : BufTy).Contents (Elt Ideal))

/-- The converted mask is the mask's bits read as numbers. -/
theorem mask_eq : val_main_v0 (F := Ideal) x2 = maskVal x2 := rfl

/-- A per-sample [32, 1, 1] entry comes from the [32] entry of its sample, -/
theorem idx_sample (b : Fin 32) : idx_main_v2 (ix3 b 0 0) = ix1 b :=
  funext fun d => match d with | ⟨0, _⟩ => rfl

/-- and an entry of the full array reads its sample's [32, 1, 1] entry. -/
theorem idx_entry (b : Fin 32) (h w : Fin 512) : idx_main_v9 (ix3 b h w) = ix3 b 0 0 :=
  funext fun d => match d with | ⟨0, _⟩ => rfl | ⟨1, _⟩ => rfl | ⟨2, _⟩ => rfl

/-- The count of sample `b`. -/
theorem count_apply (b : Fin 32) : val_main_v4 (F := Ideal) x2 (ix3 b 0 0) = cnt oneC (plane (maskVal x2) b) := by
  rw [val_main_v4_apply, val_main_v2_apply, val_main_v3_apply, idx_sample]
  show max (Host.reduceAdd (val_main_v0 (F := Ideal) x2) (constant (F := Ideal) S_ .f32 0x00000000#32) reducesTo_S32x512x512_S32_d1_2 h_S_ (ix1 b))
    (Ideal.ofBits .f32 0x3F800000#32) = _
  rw [planeSum_apply]
  rfl

/-- The masked mean of sample `b`. -/
theorem mean_apply (b : Fin 32) :
    val_main_v8 (F := Ideal) x x2 (ix3 b 0 0) = shift oneC (plane x b) (plane (maskVal x2) b) := by
  rw [val_main_v8_apply, val_main_v7_apply, count_apply]
  show Ideal.div (val_main_v6 (F := Ideal) x x2 (idx_main_v2 (ix3 b 0 0))) _ = _
  rw [idx_sample]
  show Ideal.div (Host.reduceAdd (val_main_v5 (F := Ideal) x x2) (constant (F := Ideal) S_ .f32 0x00000000#32) reducesTo_S32x512x512_S32_d1_2 h_S_ (ix1 b)) _ = _
  rw [planeSum_apply]
  rfl

/-- The centred value of an entry. -/
theorem centred_apply (b : Fin 32) (h w : Fin 512) :
    val_main_v10 (F := Ideal) x x2 (ix3 b h w) = x (ix3 b h w) - shift oneC (plane x b) (plane (maskVal x2) b) := by
  rw [val_main_v10_apply, val_main_v9_apply, idx_entry, mean_apply]
  rfl

/-- The deviation of sample `b`. -/
theorem deviation_apply (b : Fin 32) :
    val_main_v17 (F := Ideal) x x2 (ix3 b 0 0) = scaleR oneC epsC (plane x b) (plane (maskVal x2) b) := by
  rw [val_main_v17_apply, val_main_v15_apply, val_main_v14_apply, val_main_v16_apply, count_apply]
  show max (Ideal.div (val_main_v13 (F := Ideal) x x2 (idx_main_v2 (ix3 b 0 0))) _) (Ideal.ofBits .f32 0x358637BD#32) = _
  rw [idx_sample]
  show max (Ideal.div (Host.reduceAdd (val_main_v12 (F := Ideal) x x2) (constant (F := Ideal) S_ .f32 0x00000000#32) reducesTo_S32x512x512_S32_d1_2 h_S_ (ix1 b)) _) epsC = _
  rw [planeSum_apply]
  unfold scaleR
  refine congrArg (fun s => max (Ideal.div (tot s) (cnt oneC (plane (maskVal x2) b))) epsC) ?_
  funext h w
  show mag (val_main_v10 (F := Ideal) x x2 (ix3 b h w)) * maskVal x2 (ix3 b h w) = _
  rw [centred_apply]
  rfl

/-- The normalised value of an entry. -/
theorem normed_apply (b : Fin 32) (h w : Fin 512) :
    val_main_v19 (F := Ideal) x x2 (ix3 b h w)
      = Ideal.div (x (ix3 b h w) - shift oneC (plane x b) (plane (maskVal x2) b)) (scaleR oneC epsC (plane x b) (plane (maskVal x2) b)) := by
  rw [val_main_v19_apply, val_main_v18_apply, centred_apply]
  show Ideal.div _ (val_main_v17 (F := Ideal) x x2 (idx_main_v9 (ix3 b h w))) = _
  rw [idx_entry, deviation_apply]

/-- The second argument goes through the same operations as the first. -/
theorem second_eq : val_main_v34 (F := Ideal) x x2 = val_main_v19 (F := Ideal) x x2 := rfl

end Stages

/-- THE RESULT of the reference, entry by entry: the reference arrangement of the entry's sample. -/
theorem result_apply (x0 x1 : (⟨S32x512x512, .f32⟩ : BufTy).Contents (Elt Ideal)) (x2 : (⟨S32x512x512, .i1⟩ : BufTy).Contents (Elt Ideal))
    (b : Fin 32) (h w : Fin 512) :
    val_main_v37 (F := Ideal) x0 x1 x2 (ix3 b h w) = outR oneC epsC (plane x0 b) (plane x1 b) (plane (maskVal x2) b) h w := by
  rw [val_main_v37_apply, val_main_v36_apply, val_main_v35_apply, second_eq, normed_apply, normed_apply]
  rfl

/-- So the reference's result is the reference arrangement of its three arguments. -/
theorem result_eq (x0 x1 : (⟨S32x512x512, .f32⟩ : BufTy).Contents (Elt Ideal)) (x2 : (⟨S32x512x512, .i1⟩ : BufTy).Contents (Elt Ideal)) :
    val_main_v37 (F := Ideal) x0 x1 x2 = specR x0 x1 (maskVal x2) := by
  funext i
  obtain ⟨b, h, w, rfl⟩ : ∃ (b : Fin 32) (h w : Fin 512), i = ix3 b h w := ⟨i 0, i 1, i 2, eq_ix3 i⟩
  exact result_apply x0 x1 x2 b h w

end Cert.ReferenceIdeal.RefValue

end
-- ==== Proof.BodyValue.lean ====
/-
  The kernel body's arithmetic, read entry by entry.

  The body works on a block of two samples: three loaded vectors `v0`, `v1` (values) and `v2` (the mask as 32-bit
  words), each [2, 512, 512]. Its mask `maskOf v2` is `1` where the word is not zero and `0` elsewhere, as a float. Every
  reduction in it is the same two-step sum — over the columns of each row, then over the rows, with unit axes kept —
  which at sample `a` is the sum of the sample's whole plane (`sumHW_apply`). With that, the count, the masked means,
  the deviations and the stored value are, entry by entry, the kernel arrangement `outK` of the sample's three planes
  (`stored_eq`): the body's result is `specK v0 v1 (maskOf v2)`.
-/
import proofs.«108099_j17660905521836_2_alg».proof.Proof.Gen.KernelIdeal.Skeleton
import proofs.«108099_j17660905521836_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.MaskedNorm

/-- The body's two-step sum of a block: each row's columns, then each sample's rows, unit axes kept. -/
def sumHW (src : FVec Ideal S2x512x512 .f32) : FVec Ideal S2x1x1 .f32 :=
  shapeCast S2x1x1 (multiReduction .add [1] S2x1 (shapeCast S2x512x1 (multiReduction .add [2] S2x512 src 0x00000000#32 reduces_S2x512x512_S2x512 (.inl rfl) rfl) shapeCasts_S2x512_S2x512x1) 0x00000000#32 reduces_S2x512x1_S2x1 (.inl rfl) rfl) shapeCasts_S2x1_S2x1x1

/-- At sample `a` it is the sum of that sample's plane. -/
theorem sumHW_apply (src : FVec Ideal S2x512x512 .f32) (a : Fin 2) : sumHW src (ix3 a 0 0) = tot (plane src a) := by
  unfold sumHW
  refine (shapeCast_apply _ _ (ix3 a 0 0) (ix2 a 0) ?_).trans ?_
  · rw [Shape.rowMajor_val_two, Shape.rowMajor_val_three]
    show a.val * 1 + 0 = (a.val * 1 + 0) * 1 + 0
    omega
  refine (Ideal.multiReduction_add_single _ _ reduces_S2x512x1_S2x1 _ _ (ix2 a 0)).trans ?_
  unfold tot plane
  refine Finset.sum_congr rfl fun h _ => ?_
  refine (shapeCast_apply _ _ _ (ix2 a h) ?_).trans ?_
  · rw [Shape.rowMajor_val_two, Shape.rowMajor_val_three]
    show a.val * 512 + h.val = (a.val * 512 + h.val) * 1 + 0
    omega
  refine (Ideal.multiReduction_add_single _ _ reduces_S2x512x512_S2x512 _ _ (ix2 a h)).trans ?_
  refine Finset.sum_congr rfl fun w _ => ?_
  refine congrArg src (funext fun d => ?_)
  match d with
  | ⟨0, _⟩ => rfl
  | ⟨1, _⟩ => rfl
  | ⟨2, _⟩ => rfl

/-- A per-sample value broadcast over the sample's plane reads the sample's value. -/
theorem bcast_apply (u : FVec Ideal S2x1x1 .f32) (a : Fin 2) (h w : Fin 512) :
    broadcastTo S2x512x512 u broadcasts_S2x1x1_S2x512x512 (ix3 a h w) = u (ix3 a 0 0) :=
  broadcastTo_apply u _ (ix3 a h w) (ix3 a 0 0) (fun d => match d with
    | ⟨0, _⟩ => by show a.val = if (2 : Nat) = 1 then 0 else a.val; rw [if_neg (by decide)]
    | ⟨1, _⟩ => by show 0 = if (1 : Nat) = 1 then 0 else h.val; rw [if_pos rfl]
    | ⟨2, _⟩ => by show 0 = if (1 : Nat) = 1 then 0 else w.val; rw [if_pos rfl])

/-- The body's mask as a float vector: `1` where the word is not zero, `0` elsewhere. -/
abbrev maskOf (v2 : Vec Ideal S2x512x512 .i32) : FVec Ideal S2x512x512 .f32 := k0_pay2 v2

/-- Entry by entry it is the comparison's bit, widened and read signed. -/
theorem maskOf_apply (v2 : Vec Ideal S2x512x512 .i32) (i : S2x512x512.Idx) :
    maskOf v2 i = ((((IntOp.cmpi .ne (v2 i) 0#32).setWidth 32).toInt : ℝ) : EReal) := rfl

/-- The count of a sample. -/
theorem count_apply (v2 : Vec Ideal S2x512x512 .i32) (a : Fin 2) :
    k0_pay3 v2 (ix3 a 0 0) = cnt oneC (plane (maskOf v2) a) := by
  show max (sumHW (k0_pay2 v2) (ix3 a 0 0)) oneC = _
  rw [sumHW_apply]
  rfl

/-- The masked centred value of a sample's entry. -/
theorem centred_apply (v0 : Vec Ideal S2x512x512 .f32) (v2 : Vec Ideal S2x512x512 .i32) (a : Fin 2) (h w : Fin 512) :
    k0_pay4 v0 v2 (ix3 a h w)
      = (v0 (ix3 a h w) - shift oneC (plane v0 a) (plane (maskOf v2) a)) * maskOf v2 (ix3 a h w) := by
  show (v0 (ix3 a h w) - broadcastTo S2x512x512 (divf (sumHW (mulf v0 (k0_pay2 v2))) (k0_pay3 v2)) broadcasts_S2x1x1_S2x512x512 (ix3 a h w))
      * k0_pay2 v2 (ix3 a h w) = _
  rw [bcast_apply]
  show (v0 (ix3 a h w) - Ideal.div (sumHW (mulf v0 (k0_pay2 v2)) (ix3 a 0 0)) (k0_pay3 v2 (ix3 a 0 0))) * k0_pay2 v2 (ix3 a h w) = _
  rw [sumHW_apply, count_apply]
  rfl

/-- The deviation of a sample. -/
theorem deviation_apply (v0 : Vec Ideal S2x512x512 .f32) (v2 : Vec Ideal S2x512x512 .i32) (a : Fin 2) :
    k0_pay6 v0 v2 (ix3 a 0 0) = scaleK oneC epsC (plane v0 a) (plane (maskOf v2) a) := by
  show max (Ideal.div (sumHW (absf (k0_pay4 v0 v2)) (ix3 a 0 0)) (k0_pay3 v2 (ix3 a 0 0))) epsC = _
  rw [sumHW_apply, count_apply]
  unfold scaleK
  refine congrArg (fun s => max (Ideal.div (tot s) (cnt oneC (plane (maskOf v2) a))) epsC) ?_
  funext h w
  show mag (k0_pay4 v0 v2 (ix3 a h w)) = _
  rw [centred_apply]
  rfl

/-- THE STORED VALUE of the body, entry by entry: the kernel arrangement of the entry's sample. -/
theorem stored_apply (v0 v1 : Vec Ideal S2x512x512 .f32) (v2 : Vec Ideal S2x512x512 .i32) (a : Fin 2) (h w : Fin 512) :
    k0_pay1 (k0_pay3 v2) (k0_pay4 v0 v2) (k0_pay5 v1 v2) (k0_pay6 v0 v2) (k0_pay7 v1 v2) (ix3 a h w)
      = outK oneC epsC (plane v0 a) (plane v1 a) (plane (maskOf v2) a) h w := by
  show mag (Ideal.div (k0_pay4 v0 v2 (ix3 a h w)) (broadcastTo S2x512x512 (k0_pay6 v0 v2) broadcasts_S2x1x1_S2x512x512 (ix3 a h w))
      - Ideal.div (k0_pay4 v1 v2 (ix3 a h w)) (broadcastTo S2x512x512 (k0_pay6 v1 v2) broadcasts_S2x1x1_S2x512x512 (ix3 a h w))) = _
  rw [bcast_apply, bcast_apply, centred_apply, centred_apply, deviation_apply, deviation_apply]
  rfl

/-- So the body's result is the kernel arrangement of its three loaded vectors. -/
theorem stored_eq (v0 v1 : Vec Ideal S2x512x512 .f32) (v2 : Vec Ideal S2x512x512 .i32) :
    k0_pay1 (k0_pay3 v2) (k0_pay4 v0 v2) (k0_pay5 v1 v2) (k0_pay6 v0 v2) (k0_pay7 v1 v2) = specK v0 v1 (maskOf v2) := by
  funext i
  obtain ⟨a, h, w, rfl⟩ : ∃ (a : Fin 2) (h w : Fin 512), i = ix3 a h w := ⟨i 0, i 1, i 2, eq_ix3 i⟩
  exact stored_apply v0 v1 v2 a h w

end Cert.KernelIdeal.BodyValue

end
-- ==== Proof.BlockIndex.lean ====
/-
  Where the kernel's blocks sit, and what the mask window's array holds.

  The grid has 16 points; point `t` works on samples `2t` and `2t + 1`: every window's block index at `t` is
  (t, 0, 0) (`idx_facts`, decided over the grid), and a block is [2, 512, 512]. The mask window's array is written by the
  host before the region: each mask bit widened to a 32-bit word (`mask_words`).
-/
import proofs.«108099_j17660905521836_2_alg».proof.Proof.Gen.KernelIdeal.Frame
import proofs.«108099_j17660905521836_2_alg».proof.Proof.BodyValue
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.BodyValue Idealize.ShloMosaic.ValueIdx Cert.MaskedNorm

variable (m : (ℓ : Loc nD τ sig) → Buf (Elt Ideal) ℓ) (ρ : Dev nD → PrngReg)

/-- The body's one load and store rectangle starts at the block's origin. -/
theorem hz : (![0, 0, 0] : Fin 3 → Nat) = fun _ => 0 := funext fun a => by fin_cases a <;> rfl

/-- Every window's block index at point `t` is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The mask window's array, as the region finds it: each mask bit widened to a word. -/
theorem mask_words (c : Dev nD) :
    (V m c main_v0 : S32x512x512.Idx → BitVec 32)
      = fun i => ((m ((c : Thread nD τ).loc main_arg2) : S32x512x512.Idx → BitVec 1) i).setWidth 32 := by
  dsimp only [Gen.V, Gen.hostOps0]
  after_results
  rfl

end Cert.KernelIdeal.ArrayValue

end
-- ==== Proof.BlockRead.lean ====
/-
  Each window's block at grid point `t`, read entry by entry: entry (a, h, w) of the block is entry (2t + a, h, w) of
  the window's array, because every window's block index at `t` is (t, 0, 0) and a block is [2, 512, 512].
-/
import proofs.«108099_j17660905521836_2_alg».proof.Proof.BlockIndex
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.BodyValue Idealize.ShloMosaic.ValueIdx Cert.MaskedNorm

variable (m : (ℓ : Loc nD τ sig) → Buf (Elt Ideal) ℓ) (ρ : Dev nD → PrngReg)

/-- Entry (a, h, w) of the first value window's block at point `t` is entry (2t + a, h, w) of its array. -/
theorem blk_apply0 (c : Dev nD) (t : Fin cfg0.N) (a : Fin 2) (h w : Fin 512) (b : Fin 32) (hb : b.val = t.val * 2 + a.val) :
    (iblk m c 0 t : Vec Ideal S2x512x512 .f32) (ix3 a h w) = (V m c main_arg0 : S32x512x512.Idx → EReal) (ix3 b h w) := by
  obtain ⟨⟨e0, e1, e2⟩, -⟩ := idx_facts t
  unfold iblk
  rw [View.read_apply]
  show V m c main_arg0 _ = V m c main_arg0 _
  refine congrArg (V m c main_arg0) (funext fun d => Fin.ext ?_)
  match d with
  | ⟨0, _⟩ => show win0_0.index t 0 * 2 + 1 * a.val = b.val; rw [e0, hb]; omega
  | ⟨1, _⟩ => show win0_0.index t 1 * 512 + 1 * h.val = h.val; rw [e1]; omega
  | ⟨2, _⟩ => show win0_0.index t 2 * 512 + 1 * w.val = w.val; rw [e2]; omega

/-- The same for the second value window. -/
theorem blk_apply1 (c : Dev nD) (t : Fin cfg0.N) (a : Fin 2) (h w : Fin 512) (b : Fin 32) (hb : b.val = t.val * 2 + a.val) :
    (iblk m c 1 t : Vec Ideal S2x512x512 .f32) (ix3 a h w) = (V m c main_arg1 : S32x512x512.Idx → EReal) (ix3 b h w) := by
  obtain ⟨-, ⟨e0, e1, e2⟩, -⟩ := idx_facts t
  unfold iblk
  rw [View.read_apply]
  show V m c main_arg1 _ = V m c main_arg1 _
  refine congrArg (V m c main_arg1) (funext fun d => Fin.ext ?_)
  match d with
  | ⟨0, _⟩ => show win0_1.index t 0 * 2 + 1 * a.val = b.val; rw [e0, hb]; omega
  | ⟨1, _⟩ => show win0_1.index t 1 * 512 + 1 * h.val = h.val; rw [e1]; omega
  | ⟨2, _⟩ => show win0_1.index t 2 * 512 + 1 * w.val = w.val; rw [e2]; omega

/-- The same for the mask window, whose array holds the widened bits. -/
theorem blk_apply2 (c : Dev nD) (t : Fin cfg0.N) (a : Fin 2) (h w : Fin 512) (b : Fin 32) (hb : b.val = t.val * 2 + a.val) :
    (iblk m c 2 t : Vec Ideal S2x512x512 .i32) (ix3 a h w) = (V m c main_v0 : S32x512x512.Idx → BitVec 32) (ix3 b h w) := by
  obtain ⟨-, -, ⟨e0, e1, e2⟩, -⟩ := idx_facts t
  unfold iblk
  rw [View.read_apply]
  show V m c main_v0 _ = V m c main_v0 _
  refine congrArg (V m c main_v0) (funext fun d => Fin.ext ?_)
  match d with
  | ⟨0, _⟩ => show win0_2.index t 0 * 2 + 1 * a.val = b.val; rw [e0, hb]; omega
  | ⟨1, _⟩ => show win0_2.index t 1 * 512 + 1 * h.val = h.val; rw [e1]; omega
  | ⟨2, _⟩ => show win0_2.index t 2 * 512 + 1 * w.val = w.val; rw [e2]; omega

end Cert.KernelIdeal.ArrayValue

end
-- ==== Proof.WriteBack.lean ====
/-
  What grid point `t` writes back is block `t` of ONE whole-array function of the three arguments, `result`: the body's
  stored value is the kernel arrangement of the block's loaded vectors, an entry of that arrangement depends on its own
  sample's planes only, and the block's planes are the arguments' planes at samples 2t and 2t + 1 (the mask plane
  through the host's widening and the body's comparison with zero, which read the mask bit back as 0 or 1).
-/
import proofs.«108099_j17660905521836_2_alg».proof.Proof.BlockRead
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.BodyValue Idealize.ShloMosaic.ValueIdx Cert.MaskedNorm

variable (m : (ℓ : Loc nD τ sig) → Buf (Elt Ideal) ℓ) (ρ : Dev nD → PrngReg)

/-- What the body leaves in the result window's buffer, for any three loaded vectors: the kernel arrangement of them. -/
theorem out_eq (x0 x1 : Vec Ideal S2x512x512 .f32) (x2 : Vec Ideal S2x512x512 .i32) :
    out0_3 x0 x1 x2 = specK x0 x1 (maskOf x2) := by
  unfold out0_3
  rw [View.canon_unit_zero hz]
  simp only [View.ld_unit_zero (S := S2x512x512) hz]
  exact stored_eq x0 x1 x2

/-- The whole result array as one function of the three argument arrays. -/
abbrev result (c : Dev nD) : S32x512x512.Idx → EReal :=
  specK (m ((c : Thread nD τ).loc main_arg0)) (m ((c : Thread nD τ).loc main_arg1)) (maskVal (m ((c : Thread nD τ).loc main_arg2)))

/-- Sample `a` of the first value block at point `t` is sample `2t + a` of the first argument. -/
theorem plane0 (c : Dev nD) (t : Fin cfg0.N) (a : Fin 2) (b : Fin 32) (hb : b.val = t.val * 2 + a.val) :
    plane (iblk m c 0 t : Vec Ideal S2x512x512 .f32) a = plane (m ((c : Thread nD τ).loc main_arg0) : S32x512x512.Idx → EReal) b :=
  funext fun h' => funext fun w' => (blk_apply0 m c t a h' w' b hb).trans (congrFun (V_main_arg0 m c) (ix3 b h' w'))

/-- The same for the second value block. -/
theorem plane1 (c : Dev nD) (t : Fin cfg0.N) (a : Fin 2) (b : Fin 32) (hb : b.val = t.val * 2 + a.val) :
    plane (iblk m c 1 t : Vec Ideal S2x512x512 .f32) a = plane (m ((c : Thread nD τ).loc main_arg1) : S32x512x512.Idx → EReal) b :=
  funext fun h' => funext fun w' => (blk_apply1 m c t a h' w' b hb).trans (congrFun (V_main_arg1 m c) (ix3 b h' w'))

/-- The body's mask on sample `a` of the mask block is the mask argument's sample `2t + a` read as numbers. -/
theorem plane2 (c : Dev nD) (t : Fin cfg0.N) (a : Fin 2) (b : Fin 32) (hb : b.val = t.val * 2 + a.val) :
    plane (maskOf (iblk m c 2 t : Vec Ideal S2x512x512 .i32)) a
      = plane (maskVal (m ((c : Thread nD τ).loc main_arg2) : S32x512x512.Idx → BitVec 1)) b := by
  funext h' w'
  show maskOf (iblk m c 2 t : Vec Ideal S2x512x512 .i32) (ix3 a h' w')
    = maskVal (m ((c : Thread nD τ).loc main_arg2) : S32x512x512.Idx → BitVec 1) (ix3 b h' w')
  rw [maskOf_apply, blk_apply2 m c t a h' w' b hb, mask_words]
  exact word_bit _

/-- An entry of the kernel arrangement of the three blocks at point `t` is the entry of `result` at the same place of the
    whole array: the arrangement depends on the sample's planes only, and those are the arguments' planes. -/
theorem entry_eq (c : Dev nD) (t : Fin cfg0.N) (a : Fin 2) (h w : Fin 512) (b : Fin 32) (hb : b.val = t.val * 2 + a.val) :
    specK (iblk m c 0 t : Vec Ideal S2x512x512 .f32) (iblk m c 1 t : Vec Ideal S2x512x512 .f32)
        (maskOf (iblk m c 2 t : Vec Ideal S2x512x512 .i32)) (ix3 a h w)
      = result m c (ix3 b h w) :=
  specK_congr (n := 2) (n' := 32) (iblk m c 0 t : Vec Ideal S2x512x512 .f32) (iblk m c 1 t : Vec Ideal S2x512x512 .f32)
    (maskOf (iblk m c 2 t : Vec Ideal S2x512x512 .i32))
    (m ((c : Thread nD τ).loc main_arg0) : S32x512x512.Idx → EReal) (m ((c : Thread nD τ).loc main_arg1) : S32x512x512.Idx → EReal)
    (maskVal (m ((c : Thread nD τ).loc main_arg2) : S32x512x512.Idx → BitVec 1)) a b
    (plane0 m c t a b hb) (plane1 m c t a b hb) (plane2 m c t a b hb) h w

/-- A whole-array function read through the result window's block at point `t` is the function at the block's place. -/
theorem read_blk3 (G : S32x512x512.Idx → EReal) (t : Fin cfg0.N) (y : ((cfg0.win 3).xblock (grid0.coords t)).Idx) :
    ((cfg0.win 3).blk t).view.read (Elt Ideal) G y = G (((cfg0.win 3).blk t).view.emb y) := rfl

/-- WHAT POINT `t` WRITES BACK is block `t` of `result`. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3, out_eq]
  funext y
  have hN : cfg0.N = 16 := N_0
  have ht : t.val < 16 := hN ▸ t.isLt
  have hy0 : (y 0).val < 2 := (y 0).isLt
  have hy1 : (y 1).val < 512 := (y 1).isLt
  have hy2 : (y 2).val < 512 := (y 2).isLt
  have hlt : t.val * 2 + (y 0).val < 32 := by omega
  obtain ⟨-, -, -, ⟨e0, e1, e2⟩⟩ := idx_facts t
  have ein : (cfg0.win 3).xinj (grid0.coords t) y = (ix3 ⟨(y 0).val, hy0⟩ ⟨(y 1).val, hy1⟩ ⟨(y 2).val, hy2⟩ : S2x512x512.Idx) :=
    funext fun d => match d with | ⟨0, _⟩ => rfl | ⟨1, _⟩ => rfl | ⟨2, _⟩ => rfl
  have eout : ((cfg0.win 3).blk t).view.emb y
      = (ix3 ⟨t.val * 2 + (y 0).val, hlt⟩ ⟨(y 1).val, hy1⟩ ⟨(y 2).val, hy2⟩ : S32x512x512.Idx) := by
    refine funext fun d => Fin.ext ?_
    match d with
    | ⟨0, _⟩ => show win0_3.index t 0 * 2 + 1 * (y 0).val = t.val * 2 + (y 0).val; rw [e0]; omega
    | ⟨1, _⟩ => show win0_3.index t 1 * 512 + 1 * (y 1).val = (y 1).val; rw [e1]; omega
    | ⟨2, _⟩ => show win0_3.index t 2 * 512 + 1 * (y 2).val = (y 2).val; rw [e2]; omega
  refine (congrArg (specK (iblk m c 0 t : Vec Ideal S2x512x512 .f32) (iblk m c 1 t : Vec Ideal S2x512x512 .f32)
    (maskOf (iblk m c 2 t : Vec Ideal S2x512x512 .i32))) ein).trans ?_
  refine (entry_eq m c t ⟨(y 0).val, hy0⟩ ⟨(y 1).val, hy1⟩ ⟨(y 2).val, hy2⟩ ⟨t.val * 2 + (y 0).val, hlt⟩ rfl).trans ?_
  exact (congrArg (result m c) eout.symm).trans (read_blk3 (result m c) t y).symm

end Cert.KernelIdeal.ArrayValue

end
-- ==== Proof.ResultArray.lean ====
/-
  The 16 blocks cover the [32, 512, 512] result array (sample `b` lies in block `b / 2`), so after the run the array is
  `result`, the kernel arrangement of the three argument arrays; the run is restated with that post.
-/
import proofs.«108099_j17660905521836_2_alg».proof.Proof.WriteBack
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.BodyValue Idealize.ShloMosaic.ValueIdx Cert.MaskedNorm

variable (m : (ℓ : Loc nD τ sig) → Buf (Elt Ideal) ℓ) (ρ : Dev nD → PrngReg)

/-- An entry of the array is in point `t`'s block iff each coordinate is in the block's range on its axis. -/
theorem mem_blk3 (t : Fin cfg0.N) (i : S32x512x512.Idx) :
    i ∈ ((cfg0.win 3).blk t).view.set ↔ ∀ a : Fin 3, win0_3.index t a * S2x512x512.size a ≤ (i a).val
      ∧ (i a).val < win0_3.index t a * S2x512x512.size a + S2x512x512.size a := by
  show i ∈ ((View.whole main_v1).slice (win0_3.rect t)).set ↔ _
  rw [View.set_slice_whole, Rect.mem_set_unit]
  exact Iff.rfl

/-- The 16 blocks cover the array: sample `b` lies in block `b / 2`. -/
theorem cover (i : S32x512x512.Idx) : ∃ t : Fin cfg0.N, (cfg0.win 3).flush t = true ∧ i ∈ ((cfg0.win 3).blk t).view.set := by
  have hN : cfg0.N = 16 := N_0
  have hi0 : (i 0).val < 32 := (i 0).isLt
  have hi1 : (i 1).val < 512 := (i 1).isLt
  have hi2 : (i 2).val < 512 := (i 2).isLt
  have hq : (i 0).val / 2 < cfg0.N := by rw [hN]; omega
  obtain ⟨-, -, -, ⟨e0, e1, e2⟩⟩ := idx_facts ⟨(i 0).val / 2, hq⟩
  refine ⟨⟨(i 0).val / 2, hq⟩, flush0_3 _, ?_⟩
  rw [mem_blk3]
  intro d
  match d with
  | ⟨0, _⟩ =>
    show win0_3.index ⟨(i 0).val / 2, hq⟩ 0 * 2 ≤ (i 0).val ∧ (i 0).val < win0_3.index ⟨(i 0).val / 2, hq⟩ 0 * 2 + 2
    rw [e0]
    show (i 0).val / 2 * 2 ≤ (i 0).val ∧ (i 0).val < (i 0).val / 2 * 2 + 2
    omega
  | ⟨1, _⟩ =>
    show win0_3.index ⟨(i 0).val / 2, hq⟩ 1 * 512 ≤ (i 1).val ∧ (i 1).val < win0_3.index ⟨(i 0).val / 2, hq⟩ 1 * 512 + 512
    rw [e1]; omega
  | ⟨2, _⟩ =>
    show win0_3.index ⟨(i 0).val / 2, hq⟩ 2 * 512 ≤ (i 2).val ∧ (i 2).val < win0_3.index ⟨(i 0).val / 2, hq⟩ 2 * 512 + 512
    rw [e2]; omega

/-- So the result array ends as `result`. -/
theorem final (c : Dev nD) : (dats m 0 c).arrAt 3 cfg0.N = result m c :=
  (dats m 0 c).arrAt_eq_of_cover 3 (result m c) (fun t _ => flushed_eq m c t) cover

/-- The run, read: the result array at `result`, the three arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.ArrayValue

end
-- ==== Proof.lean ====
/-
  The certificate of a masked per-sample normalisation.

  Both programs take two value arrays `pred`, `gt` and a mask, each [32, 512, 512], and treat every sample's
  512 × 512 plane on its own: with `m` the mask as numbers 0 / 1, `cnt = max (∑ m) 1`, the masked mean
  `shift x = (∑ x·m) / cnt` and the masked mean absolute deviation `scale x` (at least `eps`), the result is the absolute
  difference of the two normalised arrays, zero off the mask. The reference computes `|x - shift x|·m` for the deviation
  and masks the final difference; the kernel masks the centred value `(x - shift x)·m` once, uses it both under the
  absolute value of the deviation and in the quotient, and never masks again. Because a mask entry is 0 or 1 the two are
  the same function of the arguments on the extended reals (Proof/PlaneLaw.lean: `|a·m| = |a|·m`; where `m = 0` both
  results are 0, the deviation being at least `eps > 0`), with no use of the inputs' finiteness.

  The pieces: Proof/Spec.lean states both arrangements as functions of whole arrays; Proof/RefValue.lean reads the
  reference's run as the reference arrangement (its sum over both plane axes at once is the plane's double sum);
  Proof/BodyValue.lean reads the kernel body's stored value on a block of two samples as the kernel arrangement (its
  row-then-column sums are the same double sum); Proof/BlockIndex.lean, BlockRead.lean, WriteBack.lean and
  ResultArray.lean carry that from the 16 blocks to the whole result array, through the host's widening of the mask to
  words. The three frames are the generated ones (the reference's is its generated run with the result dropped), and
  the idealization rewrote nothing, so `preserves` is `True`.
-/
import proofs.«108099_j17660905521836_2_alg».proof.Defs
import proofs.«108099_j17660905521836_2_alg».proof.Proof.Gen.Kernel
import proofs.«108099_j17660905521836_2_alg».proof.Proof.Gen.Kernel.Skeleton
import proofs.«108099_j17660905521836_2_alg».proof.Proof.Gen.Kernel.Launch
import proofs.«108099_j17660905521836_2_alg».proof.Proof.Gen.Kernel.Points
import proofs.«108099_j17660905521836_2_alg».proof.Proof.Gen.Kernel.Frame
import proofs.«108099_j17660905521836_2_alg».proof.Proof.Gen.KernelIdeal
import proofs.«108099_j17660905521836_2_alg».proof.Proof.Gen.KernelIdeal.Skeleton
import proofs.«108099_j17660905521836_2_alg».proof.Proof.Gen.KernelIdeal.Launch
import proofs.«108099_j17660905521836_2_alg».proof.Proof.Gen.KernelIdeal.Points
import proofs.«108099_j17660905521836_2_alg».proof.Proof.Gen.KernelIdeal.Frame
import proofs.«108099_j17660905521836_2_alg».proof.Proof.Gen.ReferenceIdeal
import proofs.«108099_j17660905521836_2_alg».proof.Proof.Gen.Pre_finite_inputs
import proofs.«108099_j17660905521836_2_alg».proof.Proof.Gen.ReferenceIdeal.Run
import proofs.«108099_j17660905521836_2_alg».proof.Proof.Gen.ReferenceIdeal.Read
import proofs.«108099_j17660905521836_2_alg».proof.Proof.RefValue
import proofs.«108099_j17660905521836_2_alg».proof.Proof.ResultArray
import Idealize.ShloMosaic.Adequacy
import Idealize.ShloMosaic.Init

noncomputable section

namespace Cert.Proof

open Idealize.ShloMosaic Idealize.ShloMosaic.TcCoe Idealize.SL.Sem Cert.MaskedNorm

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends as the kernel arrangement of its arguments and the reference's
    as the reference arrangement of its own, which agree with the kernel's; for a mask of zeros and ones the two
    arrangements are one function. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.result_eq,
    (hagree c).1, (hagree c).2.1, (hagree c).2.2]
  exact (specK_eq_specR _ _ _ (maskVal_bit _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
